-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S2000x64 : Shape := ⟨2, ![2000, 64]⟩
abbrev S1600000x64 : Shape := ⟨2, ![1600000, 64]⟩
abbrev S2000 : Shape := ⟨1, ![2000]⟩
abbrev S2000x1 : Shape := ⟨2, ![2000, 1]⟩

abbrev nBuf : Space → Nat
  | .hbm => 41
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128x64, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x64, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128x64, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics both programs compute, as functions of whole arrays.

  A two-layer graph convolution over N = 100000 nodes and E = 1600000 weighted edges, then a softmax:
    H0 = X · W0                      ([N,256] · [256,128])
    A0 = agg H0                      (for every node, the weighted sum of H0's rows over the edges that end there)
    H1 = max(A0, 0) · W1             ([N,128] · [128,64])
    A1 = agg H1
    Y  = softmax (max(A1, 0))        (along each row of 64 entries)
  The aggregation reads an edge's source row (a negative source counted from the end), scales it by the edge's
  weight and adds it into the destination's row of an array of zeros.  It is the same chain of host operations in
  both programs, so it is named here once and never opened: only the values going in are compared.
-/
import proofs.«110595_j37014028157506_1_alg».proof.Proof.Gen.ReferenceIdeal

noncomputable section

namespace Cert.Spec

open Cert.ReferenceIdeal Cert.ReferenceIdeal.Gen Idealize.ShloMosaic

variable {F : FTy → Type} [FloatOps F]

/-- The first dense layer: features [N,256] times weights [256,128]. -/
def denseA (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w

/-- Every edge's source row as a column of row numbers, a negative number counted from the end. -/
def srcRows (src : (⟨S1600000, .i32⟩ : BufTy).Contents (Elt F)) : (⟨S1600000x1, .i32⟩ : BufTy).Contents (Elt F) :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- The aggregation over the edges of an [N,128] array: row d of the result is the sum over the edges ending at d
    of the edge's weight times the source's row. -/
def aggA (h : (⟨S100000x128, .f32⟩ : BufTy).Contents (Elt F)) (src dst : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (broadcastInDim S1600000x128 ![0, 1] bcast_S1600000x1_S1600000x128_0_1 (broadcastInDim S1600000x1 ![0] bcast_S1600000_S1600000x1_0 w)) (Host.gather gather_S100000x128_S1600000x1_S1600000x128_1_0_n_n_0_1_1128 h (srcRows src)))

/-- The positive part of an [N,128] array. -/
def reluA (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The second dense layer: [N,128] times weights [128,64]. -/
def denseB (a : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none a w

/-- The aggregation over the edges of an [N,64] array. -/
def aggB (h : (⟨S100000x64, .f32⟩ : BufTy).Contents (Elt F)) (src dst : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (mulf (broadcastInDim S1600000x64 ![0, 1] bcast_S1600000x1_S1600000x64_0_1 (broadcastInDim S1600000x1 ![0] bcast_S1600000_S1600000x1_0 w)) (Host.gather gather_S100000x64_S1600000x1_S1600000x64_1_0_n_n_0_1_164 h (srcRows src)))

/-- The positive part of an [N,64] array. -/
def reluB (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- Each row's largest entry (never below -inf), as an [N] array. -/
def rowMax (a : (⟨S100000x64, .f32⟩ : BufTy).Contents (Elt F)) : (⟨S100000, .f32⟩ : BufTy).Contents (Elt F) :=
  maximumf (broadcastInDim S100000 ![] bcast_S_S100000 (constant S_ .f32 0xFF800000#32)) (Host.reduce FloatOps.maximumf a (constant S_ .f32 0xFF800000#32) reducesTo_S100000x64_S100000_d1 h_S_)

/-- exp of each entry less its row's largest entry. -/
def shiftedExp (a : (⟨S100000x64, .f32⟩ : BufTy).Contents (Elt F)) : (⟨S100000x64, .f32⟩ : BufTy).Contents (Elt F) :=
  Host.exp (subf a (broadcastInDim S100000x64 ![0, 1] bcast_S100000x1_S100000x64_0_1 (broadcastInDim S100000x1 ![0] bcast_S100000_S100000x1_0 (rowMax a))))

/-- The softmax along each row of an [N,64] array: the shifted exponentials over their row sum. -/
def softmaxB (a : (⟨S100000x64, .f32⟩ : BufTy).Contents (Elt F)) : (⟨S100000x64, .f32⟩ : BufTy).Contents (Elt F) :=
  Host.divf (shiftedExp a) (broadcastInDim S100000x64 ![0, 1] bcast_S100000x1_S100000x64_0_1 (broadcastInDim S100000x1 ![0] bcast_S100000_S100000x1_0 (Host.reduceAdd (shiftedExp a) (constant S_ .f32 0x00000000#32) reducesTo_S100000x64_S100000_d1 h_S_)))

/-- The whole network as one function of the six argument arrays. -/
def network (x : (⟨S100000x256, .f32⟩ : BufTy).Contents (Elt F)) (src dst : (⟨S1600000, .i32⟩ : BufTy).Contents (Elt F))
    (ew : (⟨S1600000, .f32⟩ : BufTy).Contents (Elt F)) (w0 : (⟨S256x128, .f32⟩ : BufTy).Contents (Elt F))
    (w1 : (⟨S128x64, .f32⟩ : BufTy).Contents (Elt F)) : (⟨S100000x64, .f32⟩ : BufTy).Contents (Elt F) :=
  softmaxB (reluB (aggB (denseB (reluA (aggA (denseA x w0) src dst ew)) w1) src dst ew))

end Cert.Spec

end
-- ==== Proof.RefSpec.lean ====
/-
  The reference's result is the network of Spec.lean applied to its arguments: its composed term is that
  composition spelt out, the row softmax's shifted entries written once per use.
-/
import proofs.«110595_j37014028157506_1_alg».proof.Proof.Spec
import proofs.«110595_j37014028157506_1_alg».proof.Proof.Gen.ReferenceIdeal.Run

noncomputable section

namespace Cert.RefSpec

open Cert.ReferenceIdeal Cert.ReferenceIdeal.Gen Idealize.ShloMosaic Idealize.ShloMosaic.TcCoe Idealize.SL.Sem

variable {F : FTy → Type} [FloatOps F]

set_option maxRecDepth 8192 in
/-- The reference's result array is the network of its six argument arrays. -/
theorem result_eq (m : (ℓ : Loc nD τ sig) → Buf (Elt F) ℓ) (c : Dev nD) :
    Cert.ReferenceIdeal.Value.res_main_v40 m c
      = Cert.Spec.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v40 Cert.Spec.network Cert.Spec.softmaxB Cert.Spec.shiftedExp Cert.Spec.rowMax
    Cert.Spec.reluB Cert.Spec.aggB Cert.Spec.denseB Cert.Spec.reluA Cert.Spec.aggA Cert.Spec.srcRows Cert.Spec.denseA
  rfl

end Cert.RefSpec

end
-- ==== Proof.KernelRun.lean ====
/-
  The idealized kernel's run with its result kept: from any memory with zero counters every weakly fair execution
  of @main terminates without a fault, the six argument arrays end as launched, and the result array ends at the
  last boundary's contents — the third region's output array after its fifty write-backs.  The run is the launch
  over @main's five segments (three regions, two stretches of host operations); only the final reading differs
  from the frame claim's, which forgets the result.
-/
import proofs.«110595_j37014028157506_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the last boundary's contents and the
    argument arrays as launched. -/
theorem run_result : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.HostStretch.lean ====
/-
  The two stretches of host operations between the regions, read as functions.

  Each stretch gathers every edge's source row of the array the region before it wrote, scales it by the edge's
  weight and adds it into the destination's row of an array of zeros: the aggregation of Spec.lean, applied to
  that array and to the three edge arrays.  It writes none of the argument arrays, and no region writes one
  either, so at every boundary the edge arrays and the weights still hold what the program was launched with.
  The aggregation is the same chain of operations in the reference, and is not opened here.
-/
import proofs.«110595_j37014028157506_1_alg».proof.Proof.Spec
import proofs.«110595_j37014028157506_1_alg».proof.Proof.Gen.KernelIdeal.Frame
import Idealize.ShloMosaic.Lib.StableHlo.Run

set_option maxRecDepth 16384

noncomputable section

namespace Cert.KHost

open Cert.KernelIdeal Cert.KernelIdeal.Gen
open Idealize.ShloMosaic Idealize.ShloMosaic.TcCoe Idealize.SL.Sem Idealize.ShloMosaic.StableHlo

variable {F : FTy → Type} [FloatOps F]

/-! ## A stretch as a function of the contents it starts from -/

/-- The first stretch leaves, in its last buffer, the aggregation of the first region's output array over the edges. -/
theorem stretch1_result (W : Valuation τ sig (Elt F)) :
    StableHlo.after (hostOps1 (F := F)) W (Proc.devRef .tc main_v13)
      = Cert.Spec.aggA (F := F) (W (Proc.devRef .tc main_v0)) (W (Proc.devRef .tc main_arg1))
          (W (Proc.devRef .tc main_arg2)) (W (Proc.devRef .tc main_arg3)) := by
  after_results
  rfl

/-- The first stretch writes none of the edge arrays and not the second layer's weights. -/
theorem stretch1_arg1 (W : Valuation τ sig (Elt F)) :
    StableHlo.after (hostOps1 (F := F)) W (Proc.devRef .tc main_arg1) = W (Proc.devRef .tc main_arg1) := by
  after_results
theorem stretch1_arg2 (W : Valuation τ sig (Elt F)) :
    StableHlo.after (hostOps1 (F := F)) W (Proc.devRef .tc main_arg2) = W (Proc.devRef .tc main_arg2) := by
  after_results
theorem stretch1_arg3 (W : Valuation τ sig (Elt F)) :
    StableHlo.after (hostOps1 (F := F)) W (Proc.devRef .tc main_arg3) = W (Proc.devRef .tc main_arg3) := by
  after_results
theorem stretch1_arg5 (W : Valuation τ sig (Elt F)) :
    StableHlo.after (hostOps1 (F := F)) W (Proc.devRef .tc main_arg5) = W (Proc.devRef .tc main_arg5) := by
  after_results

/-- The second stretch leaves, in its last buffer, the aggregation of the second region's output array over the edges. -/
theorem stretch2_result (W : Valuation τ sig (Elt F)) :
    StableHlo.after (hostOps2 (F := F)) W (Proc.devRef .tc main_v27)
      = Cert.Spec.aggB (F := F) (W (Proc.devRef .tc main_v14)) (W (Proc.devRef .tc main_arg1))
          (W (Proc.devRef .tc main_arg2)) (W (Proc.devRef .tc main_arg3)) := by
  after_results
  rfl

end Cert.KHost

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.Region0.lean ====
/-
  The first matrix-product region: X · W0 by row blocks.

  The features X are [100000, 256], the weights W0 are [256, 128], the output is [100000, 128]. The grid has 50 points;
  at point t the body sees rows 2000 t … 2000 t + 1999 of X, all of W0, and writes rows 2000 t … 2000 t + 1999 of the
  output. Entry (p, j) of what it writes is the sum over k of X (2000 t + p, k) * W0 (k, j): a change of storage format
  is the identity on the extended reals, and a product accumulated into zeros is the plain sum of products. The dense
  layer of the whole arrays at (r, j) is the sum over k of X (r, k) * W0 (k, j), so block t of it, at (p, j), is the same
  sum with r = 2000 t + p. Every row r lies in the block of point r / 2000, and every point writes its block back, so the
  output array ends as the dense layer of the two arrays the region finds.
-/
import proofs.«110595_j37014028157506_1_alg».proof.Proof.Spec
import proofs.«110595_j37014028157506_1_alg».proof.Proof.Gen.KernelIdeal.Frame
import proofs.«110595_j37014028157506_1_alg».proof.Proof.LibSoftplus
import proofs.«110595_j37014028157506_1_alg».proof.Proof.LibDenseLayer
import Idealize.ShloMosaic.PureOps.Ideal
import Idealize.ShloMosaic.PureOps.Ideal.Laws
import Idealize.ShloMosaic.Lib.Pipeline.Value
import Idealize.ShloMosaic.Lib.ValueIdx

noncomputable section

namespace Cert.KRegion0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

open scoped BigOperators

/-- The zero offsets of a whole-buffer access, however the zeros are spelt. -/
theorem zero_offsets : (![0, 0] : Fin 2 → Nat) = fun _ => 0 := funext fun a => by fin_cases a <;> rfl

/-- The printed index maps over the grid: at point t the row-blocked windows sit at block (t, 0), the weights at (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem dims_plain : dot_S2000x256_S256x128_S2000x128_1_0_0_1_n_n = DotDims.plain 2000 256 128 := rfl

/-- The body's payload at (p, j): row p of the feature block against column j of the weights. -/
theorem payload_apply (x0 : Vec Ideal S2000x256 .f32) (x1 : Vec Ideal S256x128 .f32) (p : Fin 2000) (j : Fin 128) :
    k0_pay1 x0 x1 (ix2 p j) = ∑ k : Fin 256, x0 (ix2 p k) * x1 (ix2 k j) := by
  unfold k0_pay1
  exact Cert.Lib.Softplus.matmul0_plain_apply dot_S2000x256_S256x128_S2000x128_1_0_0_1_n_n dims_plain none _ _ p j

theorem ref_dims_plain : Cert.ReferenceIdeal.dot_S100000x256_S256x128_S100000x128_1_0_0_1_n_n = DotDims.plain 100000 256 128 := rfl

/-- The first dense layer at (r, j). -/
theorem denseA_apply (x : FVec Ideal S100000x256 .f32) (w : FVec Ideal S256x128 .f32) (r : Fin 100000) (j : Fin 128) :
    Cert.Spec.denseA (F := Ideal) x w (ix2 r j) = ∑ k : Fin 256, x (ix2 r k) * w (ix2 k j) := by
  unfold Cert.Spec.denseA
  rw [ref_dims_plain]
  exact Idealize.ShloMosaic.StackMember.dotGeneral_plain_apply none x w r j

/-- Block t of the features, read at (p, k), is the array's row 2000 t + p. -/
theorem features_block_apply (c : Dev nD) (t : Fin cfg0.N) (p : Fin 2000) (k : Fin 256) (hr : 2000 * t.val + p.val < 100000) :
    (iblk0 V c 0 t : Vec Ideal S2000x256 .f32) (ix2 p k)
      = (V c main_arg0 : S100000x256.Idx → EReal) (ix2 (⟨2000 * t.val + p.val, hr⟩ : Fin 100000) k) := by
  obtain ⟨e0, e1, -, -, -, -⟩ := index_maps t
  show V c main_arg0 (((cfg0.win 0).blk t).view.emb (ix2 p k)) = V c main_arg0 _
  refine congrArg _ ?_
  funext a; apply Fin.ext
  match a with
  | ⟨0, _⟩ => show win0_0.index t (0 : Fin 2) * 2000 + 1 * p.val = 2000 * t.val + p.val; rw [e0]; omega
  | ⟨1, _⟩ => show win0_0.index t (1 : Fin 2) * 256 + 1 * k.val = k.val; rw [e1]; omega

/-- The weights' block at any point is the whole weight matrix. -/
theorem weights_block_apply (c : Dev nD) (t : Fin cfg0.N) (k : Fin 256) (j : Fin 128) :
    (iblk0 V c 1 t : Vec Ideal S256x128 .f32) (ix2 k j) = (V c main_arg4 : S256x128.Idx → EReal) (ix2 k j) := by
  obtain ⟨-, -, e2, e3, -, -⟩ := index_maps t
  show V c main_arg4 (((cfg0.win 1).blk t).view.emb (ix2 k j)) = V c main_arg4 _
  refine congrArg _ ?_
  funext a; apply Fin.ext
  match a with
  | ⟨0, _⟩ => show win0_1.index t (0 : Fin 2) * 256 + 1 * k.val = k.val; rw [e2]; omega
  | ⟨1, _⟩ => show win0_1.index t (1 : Fin 2) * 128 + 1 * j.val = j.val; rw [e3]; omega

/-- Entry (p, j) of the output's block t sits at row 2000 t + p of the array. -/
theorem output_block_emb (t : Fin cfg0.N) (p : Fin 2000) (j : Fin 128) (hr : 2000 * t.val + p.val < 100000) :
    ((cfg0.win 2).blk t).view.emb (ix2 p j) = (ix2 (⟨2000 * t.val + p.val, hr⟩ : Fin 100000) j : S100000x128.Idx) := by
  obtain ⟨-, -, -, -, e4, e5⟩ := index_maps t
  funext a; apply Fin.ext
  match a with
  | ⟨0, _⟩ => show win0_2.index t (0 : Fin 2) * 2000 + 1 * p.val = 2000 * t.val + p.val; rw [e4]; omega
  | ⟨1, _⟩ => show win0_2.index t (1 : Fin 2) * 128 + 1 * j.val = j.val; rw [e5]; omega

/-- What point t writes back is block t of the dense layer of the arrays the region finds. -/
theorem flushed_eq (c : Dev nD) (t : Fin cfg0.N) :
    (dat0 (F := Ideal) V c).flushed 2 t
      = ((cfg0.win 2).blk t).view.read (Elt Ideal) (Cert.Spec.denseA (F := Ideal) (V c main_arg0) (V c main_arg4)) := by
  show (cfg0.win 2).cut (grid0.coords t) ((dat0 (F := Ideal) V c).after 2 t) = _
  rw [after0_2]
  unfold out0_2
  rw [View.canon_unit_zero zero_offsets]
  simp only [View.ld_unit_zero (S := S2000x256) zero_offsets, View.ld_unit_zero (S := S256x128) zero_offsets]
  funext y
  obtain ⟨p, j, rfl⟩ : ∃ (p : Fin 2000) (j : Fin 128), y = ix2 p j := ⟨y 0, y 1, eq_ix2 y⟩
  have ht : t.val < 50 := t.isLt
  have hr : 2000 * t.val + p.val < 100000 := by have := p.isLt; omega
  show k0_pay1 (iblk0 V c 0 t) (iblk0 V c 1 t) (ix2 p j)
    = Cert.Spec.denseA (F := Ideal) (V c main_arg0) (V c main_arg4) (((cfg0.win 2).blk t).view.emb (ix2 p j))
  rw [payload_apply, output_block_emb t p j hr, denseA_apply]
  refine Finset.sum_congr rfl fun k _ => ?_
  rw [features_block_apply V c t p k hr, weights_block_apply V c t k j]

/-- An index of the array is in point t's block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every row r of the array is in the block of point r / 2000, and that point writes back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, e4, e5⟩ := index_maps t
  have e4' : win0_2.index t (0 : Fin 2) = (i 0).val / 2000 := e4
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The first region's output array is the first dense layer of the features and the weights it finds. -/
theorem array0 (c : Dev nD) : (dat0 (F := Ideal) V c).arrAt 2 cfg0.N = Cert.Spec.denseA (F := Ideal) (V c main_arg0) (V c main_arg4) :=
  (dat0 (F := Ideal) V c).arrAt_eq_of_cover 2 _ (fun t _ => flushed_eq V c t) cover

end Cert.KRegion0

end
-- ==== Proof.Region1.lean ====
/-
  The second matrix-product region: max(A, 0) · W1 by row blocks.

  The aggregated first layer A is [100000, 128], the weights W1 are [128, 64], the output is [100000, 64]. The grid has
  50 points; at point t the body sees rows 2000 t … 2000 t + 1999 of A, all of W1, and writes rows 2000 t … 2000 t + 1999
  of the output. It takes the positive part of its block entry by entry (the maximum with zero), then the product with
  W1 accumulated into zeros: entry (p, j) of what it writes is the sum over k of max (A (2000 t + p, k)) 0 * W1 (k, j), a
  change of storage format being the identity on the extended reals. The dense layer of the positive part of the whole
  array at (r, j) is the sum over k of max (A (r, k)) 0 * W1 (k, j), so block t of it, at (p, j), is the same sum with
  r = 2000 t + p. Every row r lies in the block of point r / 2000, and every point writes its block back, so the output
  array ends as the second dense layer of the positive part of the array the region finds.
-/
import proofs.«110595_j37014028157506_1_alg».proof.Proof.Spec
import proofs.«110595_j37014028157506_1_alg».proof.Proof.Gen.KernelIdeal.Frame
import proofs.«110595_j37014028157506_1_alg».proof.Proof.LibSoftplus
import proofs.«110595_j37014028157506_1_alg».proof.Proof.LibDenseLayer
import Idealize.ShloMosaic.PureOps.Ideal
import Idealize.ShloMosaic.PureOps.Ideal.Laws
import Idealize.ShloMosaic.Lib.Pipeline.Value
import Idealize.ShloMosaic.Lib.ValueIdx

noncomputable section

namespace Cert.KRegion1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

open scoped BigOperators

/-- The zero offsets of a whole-buffer access, however the zeros are spelt. -/
theorem zero_offsets : (![0, 0] : Fin 2 → Nat) = fun _ => 0 := funext fun a => by fin_cases a <;> rfl

/-- The printed index maps over the grid: at point t the row-blocked windows sit at block (t, 0), the weights at (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem dims_plain : dot_S2000x128_S128x64_S2000x64_1_0_0_1_n_n = DotDims.plain 2000 128 64 := rfl

/-- The body's payload at (p, j): the positive part of row p of the block against column j of the weights. -/
theorem payload_apply (x0 : Vec Ideal S2000x128 .f32) (x1 : Vec Ideal S128x64 .f32) (p : Fin 2000) (j : Fin 64) :
    k1_pay1 x0 x1 (ix2 p j) = ∑ k : Fin 128, max (x0 (ix2 p k)) 0 * x1 (ix2 k j) := by
  unfold k1_pay1
  refine (Cert.Lib.Softplus.matmul0_plain_apply dot_S2000x128_S128x64_S2000x64_1_0_0_1_n_n dims_plain none _ _ p j).trans ?_
  refine Finset.sum_congr rfl fun k _ => ?_
  rw [truncf_apply, truncf_apply, shapeCast_self, Cert.Lib.DenseLayer.relu_apply]

theorem ref_dims_plain : Cert.ReferenceIdeal.dot_S100000x128_S128x64_S100000x64_1_0_0_1_n_n = DotDims.plain 100000 128 64 := rfl

/-- The second dense layer at (r, j). -/
theorem denseB_apply (a : FVec Ideal S100000x128 .f32) (w : FVec Ideal S128x64 .f32) (r : Fin 100000) (j : Fin 64) :
    Cert.Spec.denseB (F := Ideal) a w (ix2 r j) = ∑ k : Fin 128, a (ix2 r k) * w (ix2 k j) := by
  unfold Cert.Spec.denseB
  rw [ref_dims_plain]
  exact Idealize.ShloMosaic.StackMember.dotGeneral_plain_apply none a w r j

/-- The positive part at an entry. -/
theorem reluA_apply (a : FVec Ideal S100000x128 .f32) (i : S100000x128.Idx) :
    Cert.Spec.reluA (F := Ideal) a i = max (a i) 0 := by
  unfold Cert.Spec.reluA
  rw [maximumf_apply, broadcastInDim_apply _ _ _ i ix0 (fun a => a.elim0), constant_apply, Ideal.ofBits_zero_f32]

/-- Block t of the aggregated layer, read at (p, k), is the array's row 2000 t + p. -/
theorem input_block_apply (c : Dev nD) (t : Fin cfg1.N) (p : Fin 2000) (k : Fin 128) (hr : 2000 * t.val + p.val < 100000) :
    (iblk1 V c 0 t : Vec Ideal S2000x128 .f32) (ix2 p k)
      = (V c main_v13 : S100000x128.Idx → EReal) (ix2 (⟨2000 * t.val + p.val, hr⟩ : Fin 100000) k) := by
  obtain ⟨e0, e1, -, -, -, -⟩ := index_maps t
  show V c main_v13 (((cfg1.win 0).blk t).view.emb (ix2 p k)) = V c main_v13 _
  refine congrArg _ ?_
  funext a; apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The weights' block at any point is the whole weight matrix. -/
theorem weights_block_apply (c : Dev nD) (t : Fin cfg1.N) (k : Fin 128) (j : Fin 64) :
    (iblk1 V c 1 t : Vec Ideal S128x64 .f32) (ix2 k j) = (V c main_arg5 : S128x64.Idx → EReal) (ix2 k j) := by
  obtain ⟨-, -, e2, e3, -, -⟩ := index_maps t
  show V c main_arg5 (((cfg1.win 1).blk t).view.emb (ix2 k j)) = V c main_arg5 _
  refine congrArg _ ?_
  funext a; apply Fin.ext
  match a with
  | ⟨0, _⟩ => show win1_1.index t (0 : Fin 2) * 128 + 1 * k.val = k.val; rw [e2]; omega
  | ⟨1, _⟩ => show win1_1.index t (1 : Fin 2) * 64 + 1 * j.val = j.val; rw [e3]; omega

/-- Entry (p, j) of the output's block t sits at row 2000 t + p of the array. -/
theorem output_block_emb (t : Fin cfg1.N) (p : Fin 2000) (j : Fin 64) (hr : 2000 * t.val + p.val < 100000) :
    ((cfg1.win 2).blk t).view.emb (ix2 p j) = (ix2 (⟨2000 * t.val + p.val, hr⟩ : Fin 100000) j : S100000x64.Idx) := by
  obtain ⟨-, -, -, -, e4, e5⟩ := index_maps t
  funext a; apply Fin.ext
  match a with
  | ⟨0, _⟩ => show win1_2.index t (0 : Fin 2) * 2000 + 1 * p.val = 2000 * t.val + p.val; rw [e4]; omega
  | ⟨1, _⟩ => show win1_2.index t (1 : Fin 2) * 64 + 1 * j.val = j.val; rw [e5]; omega

/-- What point t writes back is block t of the second dense layer of the positive part of the array the region finds. -/
theorem flushed_eq (c : Dev nD) (t : Fin cfg1.N) :
    (dat1 (F := Ideal) V c).flushed 2 t
      = ((cfg1.win 2).blk t).view.read (Elt Ideal)
          (Cert.Spec.denseB (F := Ideal) (Cert.Spec.reluA (F := Ideal) (V c main_v13)) (V c main_arg5)) := by
  show (cfg1.win 2).cut (grid1.coords t) ((dat1 (F := Ideal) V c).after 2 t) = _
  rw [after1_2]
  unfold out1_2
  rw [View.canon_unit_zero zero_offsets]
  simp only [View.ld_unit_zero (S := S2000x128) zero_offsets, View.ld_unit_zero (S := S128x64) zero_offsets]
  funext y
  obtain ⟨p, j, rfl⟩ : ∃ (p : Fin 2000) (j : Fin 64), y = ix2 p j := ⟨y 0, y 1, eq_ix2 y⟩
  have ht : t.val < 50 := t.isLt
  have hr : 2000 * t.val + p.val < 100000 := by have := p.isLt; omega
  show k1_pay1 (iblk1 V c 0 t) (iblk1 V c 1 t) (ix2 p j)
    = Cert.Spec.denseB (F := Ideal) (Cert.Spec.reluA (F := Ideal) (V c main_v13)) (V c main_arg5)
        (((cfg1.win 2).blk t).view.emb (ix2 p j))
  rw [payload_apply, output_block_emb t p j hr, denseB_apply]
  refine Finset.sum_congr rfl fun k _ => ?_
  rw [reluA_apply, input_block_apply V c t p k hr, weights_block_apply V c t k j]

/-- An index of the array is in point t's block iff each coordinate is in the block's range on its axis. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v14).slice (win1_2.rect t)).set ↔ _
  rw [View.set_slice_whole, Rect.mem_set_unit]
  exact Iff.rfl

/-- Every row r of the array is in the block of point r / 2000, and that point writes back. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨-, -, -, -, e4, e5⟩ := index_maps t
  have e4' : win1_2.index t (0 : Fin 2) = (i 0).val / 2000 := e4
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- The second region's output array is the second dense layer of the positive part of the aggregated array it finds. -/
theorem array1 (c : Dev nD) : (dat1 (F := Ideal) V c).arrAt 2 cfg1.N = Cert.Spec.denseB (F := Ideal) (Cert.Spec.reluA (F := Ideal) (V c main_v13)) (V c main_arg5) :=
  (dat1 (F := Ideal) V c).arrAt_eq_of_cover 2 _ (fun t _ => flushed_eq V c t) cover

end Cert.KRegion1

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Region2.lean ====
/-
  The softmax region: the output array after the region is the softmax along each row of the positive part of the
  array the region finds.

  `rowSoftmax r j` is the softmax of one row `r` of 64 entries at entry `j`: exp of the entry less the row's largest
  entry (never below -inf), over the sum of those exponentials along the row. The body's payload at (p, j) is
  `rowSoftmax` of the positive part of row `p` of the loaded [2000, 64] block (`pay_apply`): the row's largest entry is
  the fold of max over the row, the sum the sum over the row, each laid back along the row as a column. The
  whole-array softmax of the positive part, at (i, j), is `rowSoftmax` of the positive part of row `i` of the array
  (`spec_apply`): the same fold from the same initial value and the same sum, the host's initial zero added in
  front. Row `p` of the block at grid point `t` is row 2000 t + p of the array, so what point `t` writes back is block
  `t` of the whole-array function (`flushed_eq`); row `r` lies in the block of point r / 2000, so the 50 blocks cover
  the array (`cover`), and the array ends holding that function (`array2`).
-/
import proofs.«110595_j37014028157506_1_alg».proof.Proof.Spec
import proofs.«110595_j37014028157506_1_alg».proof.Proof.Gen.KernelIdeal.Frame
import proofs.«110595_j37014028157506_1_alg».proof.Proof.LibSoftplus
import proofs.«110595_j37014028157506_1_alg».proof.Proof.LibDenseLayer
import proofs.«110595_j37014028157506_1_alg».proof.Proof.LibColumnLayout
import Idealize.ShloMosaic.PureOps.Reduce
import Idealize.ShloMosaic.PureOps.Ideal
import Idealize.ShloMosaic.PureOps.Ideal.Laws
import Idealize.ShloMosaic.Lib.Pipeline.Value
import Idealize.ShloMosaic.Lib.ValueIdx

noncomputable section

namespace Cert.KRegion2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## A row's softmax, and the reductions along a row read at an index -/

section Lane

variable {a b : ℕ}

/-- In an [a, b] array reduced along its rows, the reduced index `p` with lane `k` put back is (p, k). -/
theorem lift_lane (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

/-- A vector maximum-reduction of an [a, b] array along its rows, at row `p`: the fold of max from the
    accumulator's value over the row's entries. -/
theorem multiReduction_max_lane {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) fun k => src (ix2 p k) := by
  refine (Ideal.multiReduction_maximumf_single src acc h hφ hacc (ix1 p)).trans ?_
  refine congrArg (fun f => Finset.fold max (Ideal.ofBits φ acc) f (Finset.univ : Finset (Fin b))) ?_
  funext k
  exact congrArg src (lift_lane h p k)

/-- A vector sum-reduction of an [a, b] array along its rows, at row `p`: the sum of the row's entries. -/
theorem multiReduction_add_lane {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) := by
  refine (Ideal.multiReduction_add_single src acc h hφ hacc (ix1 p)).trans ?_
  refine Finset.sum_congr rfl fun k _ => ?_
  exact congrArg src (lift_lane h p k)

/-- The host's reduce with a maximum body along the rows of an [a, b] array, at row `p`: the fold of max from
    the initial value's element over the row's entries. -/
theorem hostReduce_max_lane {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) fun k => x (ix2 p k) := by
  rw [Host.reduce_eq_fold_single FloatOps.maximumf x init h' h hu]
  refine congrArg (fun f => Finset.fold max (init (Shape.Idx.first hu)) f (Finset.univ : Finset (Fin b))) ?_
  funext k
  exact congrArg x (lift_lane h p k)

/-- The host's sum along the rows of an [a, b] array, at row `p`: the initial value's element plus the sum of
    the row's entries. -/
theorem hostReduceAdd_lane {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduceAdd (F := Ideal) x init h' hu (ix1 p) = init (Shape.Idx.first hu) + ∑ k : Fin b, x (ix2 p k) := by
  show Ideal.hostReduceAdd h' x (init (Shape.Idx.first hu)) (ix1 p) = _
  rw [Ideal.hostReduceAdd_single h' h]
  refine congrArg (_ + ·) (Finset.sum_congr rfl fun k _ => ?_)
  exact congrArg x (lift_lane h p k)

/-- The largest entry of a row, never below -inf. -/
def rowTop (r : Fin b → EReal) : EReal :=
  max (Ideal.ofBits .f32 0xFF800000#32) ((Finset.univ : Finset (Fin b)).fold max (Ideal.ofBits .f32 0xFF800000#32) r)

/-- The softmax of a row at entry `j`: exp of the entry less the row's largest, over the sum of those along the row. -/
def rowSoftmax (r : Fin b → EReal) (j : Fin b) : EReal :=
  Ideal.div (Ideal.exp (r j - rowTop r)) (∑ k : Fin b, Ideal.exp (r k - rowTop r))

end Lane

/-! ## The body's payload at an index -/

section Payload

variable {a b : ℕ}

/-- A vector [a] cast to a column and laid along every lane of [a, b], read at (p, j): the vector at `p`. -/
theorem column_apply {α : Type} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (j : Fin b) :
    broadcastTo ⟨2, ![a, b]⟩ (shapeCast ⟨2, ![a, 1]⟩ v hc) hb (ix2 p j) = v (ix1 p) := by
  rw [PhysLoss.broadcastTo_a1_ab_apply, PhysLoss.shapeCast_a_a1_apply]

/-- The maximum with -inf of the maximum-reduction along the rows, at row `p`: the row's largest entry. -/
theorem top_apply (v : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (p : Fin a) :
    maximumf (broadcast (⟨1, ![a]⟩ : Shape) (FloatOps.ofBits (F := Ideal) .f32 0xFF800000#32))
        (multiReduction .maximumf [1] (⟨1, ![a]⟩ : Shape) v 0xFF800000#32 h hφ hacc) (ix1 p)
      = rowTop fun k => v (ix2 p k) := by
  rw [maximumf_apply, broadcast_apply, multiReduction_max_lane]
  rfl

/-- exp of an entry less its row's largest entry, the largest laid along the row as a column. -/
theorem shifted_apply (v : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    exp (subf v (broadcastTo ⟨2, ![a, b]⟩ (shapeCast ⟨2, ![a, 1]⟩
        (maximumf (broadcast (⟨1, ![a]⟩ : Shape) (FloatOps.ofBits (F := Ideal) .f32 0xFF800000#32))
          (multiReduction .maximumf [1] (⟨1, ![a]⟩ : Shape) v 0xFF800000#32 h hφ hacc)) hc) hb)) (ix2 p j)
      = Ideal.exp (v (ix2 p j) - rowTop fun k => v (ix2 p k)) := by
  show Ideal.exp (subf v _ (ix2 p j)) = _
  rw [subf_apply, column_apply, top_apply]

/-- The shifted exponentials over their row sums, the sums laid along the rows as a column: at (p, j), the softmax
    of row `p` at entry `j`. -/
theorem softmaxVec_apply (v : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ)
    (hacc' : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    divf
        (exp (subf v (broadcastTo ⟨2, ![a, b]⟩ (shapeCast ⟨2, ![a, 1]⟩
          (maximumf (broadcast (⟨1, ![a]⟩ : Shape) (FloatOps.ofBits (F := Ideal) .f32 0xFF800000#32))
            (multiReduction .maximumf [1] (⟨1, ![a]⟩ : Shape) v 0xFF800000#32 h hφ hacc)) hc) hb)))
        (broadcastTo ⟨2, ![a, b]⟩ (shapeCast ⟨2, ![a, 1]⟩
          (multiReduction .add [1] (⟨1, ![a]⟩ : Shape)
            (exp (subf v (broadcastTo ⟨2, ![a, b]⟩ (shapeCast ⟨2, ![a, 1]⟩
              (maximumf (broadcast (⟨1, ![a]⟩ : Shape) (FloatOps.ofBits (F := Ideal) .f32 0xFF800000#32))
                (multiReduction .maximumf [1] (⟨1, ![a]⟩ : Shape) v 0xFF800000#32 h hφ hacc)) hc) hb)))
            0x00000000#32 h hφ hacc') hc) hb)
        (ix2 p j)
      = rowSoftmax (fun k => v (ix2 p k)) j := by
  rw [divf_apply, column_apply, multiReduction_add_lane, shifted_apply]
  unfold rowSoftmax
  refine congrArg (Ideal.div _) (Finset.sum_congr rfl fun k _ => ?_)
  exact shifted_apply v h hφ hacc hc hb p k

end Payload

/-- The payload at (p, j): the softmax of the positive part of row `p` of the loaded block, at entry `j`. -/
theorem pay_apply (x0 : Vec Ideal S2000x64 .f32) (p : Fin 2000) (j : Fin 64) :
    k2_pay1 (F := Ideal) x0 (ix2 p j) = rowSoftmax (fun k => max (x0 (ix2 p k)) 0) j := by
  unfold k2_pay1
  simp only [shapeCast_self]
  have e3 : (fun k : Fin 64 => max (x0 (ix2 p k)) 0)
      = fun k => (maximumf x0 (broadcast S2000x64 (FloatOps.ofBits (F := Ideal) .f32 0x00000000#32)) : FVec Ideal S2000x64 .f32) (ix2 p k) :=
    funext fun k => (Cert.Lib.DenseLayer.relu_apply x0 (ix2 p k)).symm
  rw [e3]
  generalize (maximumf x0 (broadcast S2000x64 (FloatOps.ofBits (F := Ideal) .f32 0x00000000#32)) : FVec Ideal S2000x64 .f32) = v
  exact softmaxVec_apply v _ _ _ _ _ _ p j

/-! ## The whole-array softmax at an index -/

section Host

variable {a b : ℕ}

/-- A vector [a] broadcast to the column [a, 1] and then along every lane of [a, b], read at (p, j): the vector
    at `p`. -/
theorem hostColumn_apply {α : Type} (y : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (j : Fin b) :
    broadcastInDim ⟨2, ![a, b]⟩ ![0, 1] h2 (broadcastInDim ⟨2, ![a, 1]⟩ ![0] h1 y) (ix2 p j) = y (ix1 p) := by
  refine (broadcastInDim_apply _ h2 _ (ix2 p j) (ix2 p (0 : Fin 1)) fun ax => ?_).trans
    (broadcastInDim_apply _ h1 y (ix2 p (0 : Fin 1)) (ix1 p) fun ax => ?_)
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

end Host

/-- The host's exponential at an index is the exponential of the element. -/
theorem hostExp_apply {s : Shape} {φ : FTy} (x : FVec Ideal s φ) (i : s.Idx) : Host.exp x i = Ideal.exp (x i) := rfl

/-- The host's quotient at an index is the quotient of the elements. -/
theorem hostDivf_apply {s : Shape} {φ : FTy} (x y : FVec Ideal s φ) (i : s.Idx) :
    Host.divf x y i = Ideal.div (x i) (y i) := rfl

/-- The positive part of the array at an index. -/
theorem reluB_apply (x : (⟨Cert.ReferenceIdeal.S100000x64, .f32⟩ : BufTy).Contents (Elt Ideal))
    (i : Cert.ReferenceIdeal.S100000x64.Idx) : Cert.Spec.reluB (F := Ideal) x i = max (x i) 0 := by
  unfold Cert.Spec.reluB
  rw [maximumf_apply, broadcastInDim_apply _ _ _ i (fun a => a.elim0) (fun a => a.elim0), constant_apply,
    Ideal.ofBits_zero_f32]

/-- Each row's largest entry, at row `i`. -/
theorem rowMax_apply (x : (⟨Cert.ReferenceIdeal.S100000x64, .f32⟩ : BufTy).Contents (Elt Ideal)) (i : Fin 100000) :
    Cert.Spec.rowMax (F := Ideal) x (ix1 i) = rowTop fun k => x (ix2 i k) := by
  unfold Cert.Spec.rowMax
  rw [maximumf_apply, broadcastInDim_apply _ _ _ (ix1 i) (fun a => a.elim0) (fun a => a.elim0), constant_apply,
    hostReduce_max_lane x _ _ (by decide) _ i, constant_apply]
  rfl

/-- exp of an entry less its row's largest entry, at (i, j). -/
theorem shiftedExp_apply (x : (⟨Cert.ReferenceIdeal.S100000x64, .f32⟩ : BufTy).Contents (Elt Ideal))
    (i : Fin 100000) (j : Fin 64) :
    Cert.Spec.shiftedExp (F := Ideal) x (ix2 i j) = Ideal.exp (x (ix2 i j) - rowTop fun k => x (ix2 i k)) := by
  unfold Cert.Spec.shiftedExp
  rw [hostExp_apply, subf_apply, hostColumn_apply, rowMax_apply]

/-- The softmax along each row of the array, at (i, j): the softmax of row `i` at entry `j`. -/
theorem softmaxB_apply (x : (⟨Cert.ReferenceIdeal.S100000x64, .f32⟩ : BufTy).Contents (Elt Ideal))
    (i : Fin 100000) (j : Fin 64) :
    Cert.Spec.softmaxB (F := Ideal) x (ix2 i j) = rowSoftmax (fun k => x (ix2 i k)) j := by
  unfold Cert.Spec.softmaxB
  rw [hostDivf_apply, hostColumn_apply, hostReduceAdd_lane _ _ _ (by decide) _ i, shiftedExp_apply]
  unfold rowSoftmax
  refine congrArg (Ideal.div _) ?_
  rw [constant_apply, Ideal.ofBits_zero_f32, zero_add]
  exact Finset.sum_congr rfl fun k _ => shiftedExp_apply x i k

/-- The softmax of the positive part of the array, at (i, j): the softmax of the positive part of row `i`. -/
theorem spec_apply (x : (⟨Cert.ReferenceIdeal.S100000x64, .f32⟩ : BufTy).Contents (Elt Ideal))
    (i : Fin 100000) (j : Fin 64) :
    Cert.Spec.softmaxB (F := Ideal) (Cert.Spec.reluB (F := Ideal) x) (ix2 i j)
      = rowSoftmax (fun k => max (x (ix2 i k)) 0) j := by
  rw [softmaxB_apply]
  exact congrArg (fun r => rowSoftmax r j) (funext fun k => reluB_apply x (ix2 i k))

/-! ## From blocks to the array -/

theorem hz : (![0, 0] : Fin 2 → Nat) = fun _ => 0 := funext fun a => by fin_cases a <;> rfl

/-- What the output array ends holding: the softmax along each row of the positive part of the array the region finds. -/
abbrev G (c : Dev nD) : Buf (Elt Ideal) ((cfg2.win 1).arr.view.loc (c.tc : Thread nD τ)) :=
  Cert.Spec.softmaxB (F := Ideal) (Cert.Spec.reluB (F := Ideal) (V c main_v27))

/-- The windows' index maps over the grid: at point `t` both windows are at block (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input window's block at point `t` is rows 2000 t … 2000 t + 1999 of the array. -/
theorem iblk_apply (c : Dev nD) (t : Fin cfg2.N) (y : S2000x64.Idx) (i : S100000x64.Idx)
    (h0 : (i 0).val = t.val * 2000 + (y 0).val) (h1 : (i 1).val = (y 1).val) :
    (iblk2 V c 0 t : Vec Ideal S2000x64 .f32) y = (V c main_v27 : S100000x64.Idx → Elt Ideal .f32) i := by
  obtain ⟨e0, e1, -, -⟩ := idx_facts t
  unfold iblk2
  rw [View.read_apply]
  show V c main_v27 (((cfg2.win 0).blk t).view.emb y) = V c main_v27 i
  congr 1
  funext a; apply Fin.ext
  match a with
  | ⟨0, _⟩ => show win2_0.index t (0 : Fin 2) * 2000 + 1 * (y 0).val = (i 0).val; rw [e0, h0]; omega
  | ⟨1, _⟩ => show win2_0.index t (1 : Fin 2) * 64 + 1 * (y 1).val = (i 1).val; rw [e1, h1]; omega

/-- At point `t` the payload at `y` is the whole-array function at the index `y` names in block `t`. -/
theorem point_eq (c : Dev nD) (t : Fin cfg2.N) (y : S2000x64.Idx) (i : S100000x64.Idx)
    (h0 : (i 0).val = t.val * 2000 + (y 0).val) (h1 : (i 1).val = (y 1).val) :
    k2_pay1 (F := Ideal) (iblk2 V c 0 t) y = G V c i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext h1
  refine (pay_apply (iblk2 V c 0 t) p s).trans ((spec_apply (V c main_v27) r s).trans ?_).symm
  refine congrArg (fun f => rowSoftmax f s) (funext fun k => congrArg (max · 0) ?_)
  exact (iblk_apply V c t (ix2 p k) (ix2 r k) h0 rfl).symm

/-- What point `t` writes back is block `t` of the whole-array function. -/
theorem flushed_eq (c : Dev nD) (t : Fin cfg2.N) :
    (dat2 (F := Ideal) V c).flushed 1 t = ((cfg2.win 1).blk t).view.read (Elt Ideal) (G V c) := by
  show (cfg2.win 1).cut (grid2.coords t) ((dat2 (F := Ideal) V c).after 1 t) = _
  rw [after2_1]
  unfold out2_1
  rw [View.canon_unit_zero hz]
  simp only [View.ld_unit_zero (S := S2000x64) hz]
  obtain ⟨-, -, e0, e1⟩ := idx_facts t
  funext y
  show k2_pay1 (F := Ideal) (iblk2 V c 0 t) y = G V c (((cfg2.win 1).blk t).view.emb y)
  refine point_eq V c t y _ ?_ ?_
  · show win2_1.index t (0 : Fin 2) * 2000 + 1 * (y 0).val = t.val * 2000 + (y 0).val
    rw [e0]; omega
  · show win2_1.index t (1 : Fin 2) * 64 + 1 * (y 1).val = (y 1).val
    rw [e1]; omega

/-- An index of the array is in point `t`'s block iff each coordinate is in the block's range on its axis. -/
theorem mem_blk (t : Fin cfg2.N) (i : S100000x64.Idx) :
    i ∈ ((cfg2.win 1).blk t).view.set ↔ ∀ a : Fin 2, win2_1.index t a * S2000x64.size a ≤ (i a).val
      ∧ (i a).val < win2_1.index t a * S2000x64.size a + S2000x64.size a := by
  show i ∈ ((View.whole main_v28).slice (win2_1.rect t)).set ↔ _
  rw [View.set_slice_whole, Rect.mem_set_unit]
  exact Iff.rfl

/-- Row `r` of the array is in the block of point `r / 2000`: the blocks cover the array. -/
theorem cover (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have ht : (i 0).val / 2000 < cfg2.N := by show (i 0).val / 2000 < 50; omega
  obtain ⟨-, -, e0, e1⟩ := idx_facts ⟨(i 0).val / 2000, ht⟩
  refine ⟨⟨(i 0).val / 2000, ht⟩, flush2_1 _, ?_⟩
  rw [mem_blk]
  intro a
  match a with
  | ⟨0, _⟩ =>
    show win2_1.index ⟨(i 0).val / 2000, ht⟩ (0 : Fin 2) * 2000 ≤ (i 0).val
      ∧ (i 0).val < win2_1.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_1.index ⟨(i 0).val / 2000, ht⟩ (1 : Fin 2) * 64 ≤ (i 1).val
      ∧ (i 1).val < win2_1.index ⟨(i 0).val / 2000, ht⟩ (1 : Fin 2) * 64 + 64
    rw [e1]; omega

/-- The output array after the region: the softmax along each row of the positive part of the array it finds. -/
theorem array2 (c : Dev nD) : (dat2 (F := Ideal) V c).arrAt 1 cfg2.N = Cert.Spec.softmaxB (F := Ideal) (Cert.Spec.reluB (F := Ideal) (V c main_v27)) :=
  (dat2 (F := Ideal) V c).arrAt_eq_of_cover 1 (G V c) (fun t _ => flushed_eq V c t) cover

end Cert.KRegion2

end
-- ==== Proof.KernelValue.lean ====
/-
  The Pallas program's result array as one function of its six argument arrays.

  The buffers' contents are followed through @main's five segments.  The first region leaves X · W0 in its output
  array (Region0) and every other buffer as it found it; the first stretch of host operations leaves the
  aggregation of that array over the edges (HostStretch), reading the edge arrays, which nothing has written;
  the second region leaves the positive part of what it finds times W1 (Region1); the second stretch its
  aggregation; the third region the row softmax of the positive part of what it finds (Region2).  Composed, the
  result array is `Cert.Spec.network` of the arguments.  Each step rewrites one array by the equation of the step
  before; the aggregations are never opened.
-/
import proofs.«110595_j37014028157506_1_alg».proof.Proof.Spec
import proofs.«110595_j37014028157506_1_alg».proof.Proof.Gen.KernelIdeal.Frame
import proofs.«110595_j37014028157506_1_alg».proof.Proof.HostStretch
import proofs.«110595_j37014028157506_1_alg».proof.Proof.Region0
import proofs.«110595_j37014028157506_1_alg».proof.Proof.Region1
import proofs.«110595_j37014028157506_1_alg».proof.Proof.Region2
import Idealize.ShloMosaic.PureOps.Ideal
import Idealize.ShloMosaic.Lib.Pipeline.Value

noncomputable section

namespace Cert.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The argument arrays at the boundaries -/

theorem edges_src_1 (c : Dev nD) : W1 m ρ c (Proc.devRef .tc main_arg1) = m ((c : Thread nD τ).loc main_arg1) :=
  W1_of_ne m ρ c main_arg1 (by decide)
theorem edges_dst_1 (c : Dev nD) : W1 m ρ c (Proc.devRef .tc main_arg2) = m ((c : Thread nD τ).loc main_arg2) :=
  W1_of_ne m ρ c main_arg2 (by decide)
theorem edges_w_1 (c : Dev nD) : W1 m ρ c (Proc.devRef .tc main_arg3) = m ((c : Thread nD τ).loc main_arg3) :=
  W1_of_ne m ρ c main_arg3 (by decide)
theorem weights1_1 (c : Dev nD) : W1 m ρ c (Proc.devRef .tc main_arg5) = m ((c : Thread nD τ).loc main_arg5) :=
  W1_of_ne m ρ c main_arg5 (by decide)

theorem edges_src_3 (c : Dev nD) : W3 m ρ c (Proc.devRef .tc main_arg1) = m ((c : Thread nD τ).loc main_arg1) :=
  (W3_of_ne m ρ c main_arg1 (by decide)).trans ((Cert.KHost.stretch1_arg1 (W1 m ρ c)).trans (edges_src_1 m ρ c))
theorem edges_dst_3 (c : Dev nD) : W3 m ρ c (Proc.devRef .tc main_arg2) = m ((c : Thread nD τ).loc main_arg2) :=
  (W3_of_ne m ρ c main_arg2 (by decide)).trans ((Cert.KHost.stretch1_arg2 (W1 m ρ c)).trans (edges_dst_1 m ρ c))
theorem edges_w_3 (c : Dev nD) : W3 m ρ c (Proc.devRef .tc main_arg3) = m ((c : Thread nD τ).loc main_arg3) :=
  (W3_of_ne m ρ c main_arg3 (by decide)).trans ((Cert.KHost.stretch1_arg3 (W1 m ρ c)).trans (edges_w_1 m ρ c))

/-! ## The arrays the regions and the stretches write, one after the other -/

/-- After the first region: the first dense layer of the features. -/
theorem hidden0 (c : Dev nD) :
    V1 m ρ c main_v0 = Cert.Spec.denseA (F := Ideal) (m ((c : Thread nD τ).loc main_arg0)) (m ((c : Thread nD τ).loc main_arg4)) :=
  (W1_arr m ρ c 2).trans (Cert.KRegion0.array0 (V0 m ρ) c)

/-- After the first stretch: its aggregation over the edges. -/
theorem agg0 (c : Dev nD) :
    V2 m ρ c main_v13 = Cert.Spec.aggA (F := Ideal) (Cert.Spec.denseA (F := Ideal) (m ((c : Thread nD τ).loc main_arg0)) (m ((c : Thread nD τ).loc main_arg4)))
      (m ((c : Thread nD τ).loc main_arg1)) (m ((c : Thread nD τ).loc main_arg2)) (m ((c : Thread nD τ).loc main_arg3)) := by
  refine (Cert.KHost.stretch1_result (W1 m ρ c)).trans ?_
  rw [edges_src_1, edges_dst_1, edges_w_1]
  exact congrArg (fun h => Cert.Spec.aggA (F := Ideal) h _ _ _) (hidden0 m ρ c)

theorem weights1_2 (c : Dev nD) : V2 m ρ c main_arg5 = m ((c : Thread nD τ).loc main_arg5) :=
  (Cert.KHost.stretch1_arg5 (W1 m ρ c)).trans (weights1_1 m ρ c)

/-- After the second region: the second dense layer of the positive part. -/
theorem hidden1 (c : Dev nD) :
    V3 m ρ c main_v14 = Cert.Spec.denseB (F := Ideal) (Cert.Spec.reluA (F := Ideal) (Cert.Spec.aggA (F := Ideal) (Cert.Spec.denseA (F := Ideal) (m ((c : Thread nD τ).loc main_arg0)) (m ((c : Thread nD τ).loc main_arg4)))
      (m ((c : Thread nD τ).loc main_arg1)) (m ((c : Thread nD τ).loc main_arg2)) (m ((c : Thread nD τ).loc main_arg3)))) (m ((c : Thread nD τ).loc main_arg5)) := by
  refine ((W3_arr m ρ c 2).trans (Cert.KRegion1.array1 (V2 m ρ) c)).trans ?_
  rw [agg0 m ρ c, weights1_2 m ρ c]

/-- After the second stretch: its aggregation over the edges. -/
theorem agg1 (c : Dev nD) :
    V4 m ρ c main_v27 = Cert.Spec.aggB (F := Ideal) (Cert.Spec.denseB (F := Ideal) (Cert.Spec.reluA (F := Ideal) (Cert.Spec.aggA (F := Ideal) (Cert.Spec.denseA (F := Ideal) (m ((c : Thread nD τ).loc main_arg0)) (m ((c : Thread nD τ).loc main_arg4)))
      (m ((c : Thread nD τ).loc main_arg1)) (m ((c : Thread nD τ).loc main_arg2)) (m ((c : Thread nD τ).loc main_arg3)))) (m ((c : Thread nD τ).loc main_arg5)))
      (m ((c : Thread nD τ).loc main_arg1)) (m ((c : Thread nD τ).loc main_arg2)) (m ((c : Thread nD τ).loc main_arg3)) := by
  refine (Cert.KHost.stretch2_result (W3 m ρ c)).trans ?_
  rw [edges_src_3, edges_dst_3, edges_w_3]
  exact congrArg (fun h => Cert.Spec.aggB (F := Ideal) h _ _ _) (hidden1 m ρ c)

/-- After the third region: the result array is the network of the six argument arrays. -/
theorem result (c : Dev nD) :
    W5 m ρ c (Proc.devRef .tc main_v28)
      = Cert.Spec.network (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine ((W5_arr m ρ c 1).trans (Cert.KRegion2.array2 (V4 m ρ) c)).trans ?_
  rw [agg1 m ρ c]
  rfl

end Cert.KValue

end
-- ==== Proof.lean ====
/-
  A two-layer graph convolution with a row softmax, as a Pallas program against its jnp reference.

  Both programs compute, of the features X [100000,256], the edges (source, destination, weight; 1600000 of them)
  and the weights W0 [256,128], W1 [128,64]:
      Y = softmax (max (agg (max (agg (X · W0), 0) · W1), 0))
  where agg sums, into each node's row, the weight times the source's row over the edges that end at the node, and
  the softmax runs along each row of 64 entries.  The Pallas program computes the two matrix products and the
  softmax in three kernels over row blocks of 2000 (fifty grid points each) and the two aggregations by the very
  host operations the reference uses.  Over the extended reals a change of float format is the identity, a block's
  matrix product into a zero accumulator is the same sum over k as the whole product's entry, and a block's row
  softmax is the whole array's row softmax: so each kernel's output array is the reference's stage applied to the
  arrays it finds (Region0, Region1, Region2), the aggregations are one function applied to equal values
  (HostStretch), and the result arrays are one function, `Cert.Spec.network`, of the six arguments (KernelValue for
  the Pallas program, RefSpec for the reference).  No law of the extended reals beyond reading the same sums at
  the same indices is used, and the precondition is not opened.
  The ideal pass rewrote nothing, so `preserves` is `True`.
-/
import proofs.«110595_j37014028157506_1_alg».proof.Defs
import proofs.«110595_j37014028157506_1_alg».proof.Proof.Gen.Kernel
import proofs.«110595_j37014028157506_1_alg».proof.Proof.Gen.Kernel.Frame
import proofs.«110595_j37014028157506_1_alg».proof.Proof.Gen.KernelIdeal
import proofs.«110595_j37014028157506_1_alg».proof.Proof.Gen.KernelIdeal.Frame
import proofs.«110595_j37014028157506_1_alg».proof.Proof.Gen.ReferenceIdeal
import proofs.«110595_j37014028157506_1_alg».proof.Proof.Gen.Pre_finite_inputs
import proofs.«110595_j37014028157506_1_alg».proof.Proof.Gen.ReferenceIdeal.Run
import proofs.«110595_j37014028157506_1_alg».proof.Proof.RefSpec
import proofs.«110595_j37014028157506_1_alg».proof.Proof.KernelRun
import proofs.«110595_j37014028157506_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the six argument arrays in their result array. -/
theorem algebraic : Cert.algebraic_KernelIdeal_ReferenceIdeal := by
  intro m ρ m' ρ' _ hagree
  refine ⟨fun c => Cert.Spec.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KValue.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSpec.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
